-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x512x512 : Shape := ⟨4, ![16, 32, 512, 512]⟩
abbrev S_ : Shape := ⟨0, ![]⟩

class Facts : Prop where
  bcast_S_S16x32x512x512 : S_.BroadcastsInDim S16x32x512x512 (![] : Fin 0 → Fin S16x32x512x512.rank)
  reducesTo_S16x32x512x512_S_d0_1_2_3 : S16x32x512x512.ReducesTo [0, 1, 2, 3] S_
  h_S_ : 0 < S_.numel

variable [Facts]

def fn {F : FTy → Type} [FloatOps F] (main_arg0 : FVec F S16x32x512x512 .f32) : IVec S_ 1 :=
  let main_v0 : FVec F S16x32x512x512 .f32 := Host.absf main_arg0
  let main_cst : FVec F S_ .f32 := constant S_ .f32 0x7F800000#32
  let main_v1 : FVec F S16x32x512x512 .f32 := broadcastInDim S16x32x512x512 ![] bcast_S_S16x32x512x512 main_cst
  let main_v2 : IVec S16x32x512x512 1 := cmpf .olt main_v0 main_v1
  let main_c : IVec S_ 1 := constantI S_ 1 1#1
  let main_v3 : IVec S_ 1 := (fun x v => Host.reduce IntOp.andi x v reducesTo_S16x32x512x512_S_d0_1_2_3 h_S_) main_v2 main_c
  main_v3
-- ==== Kernel.lean ====
abbrev S16x32x512x512 : Shape := ⟨4, ![16, 32, 512, 512]⟩
abbrev S512x512x512 : Shape := ⟨3, ![512, 512, 512]⟩
abbrev S512x256x2x256x2 : Shape := ⟨5, ![512, 256, 2, 256, 2]⟩
abbrev S512x256x1x256x1 : Shape := ⟨5, ![512, 256, 1, 256, 1]⟩
abbrev S512x256x256 : Shape := ⟨3, ![512, 256, 256]⟩
abbrev S512x4x256x256 : Shape := ⟨4, ![512, 4, 256, 256]⟩
abbrev S8x256x256 : Shape := ⟨3, ![8, 256, 256]⟩
abbrev S8x4x256x256 : Shape := ⟨4, ![8, 4, 256, 256]⟩
abbrev S8x1x256x256 : Shape := ⟨4, ![8, 1, 256, 256]⟩
abbrev S16x32x4x256x256 : Shape := ⟨5, ![16, 32, 4, 256, 256]⟩
abbrev S16x128x256x256 : Shape := ⟨4, ![16, 128, 256, 256]⟩

abbrev nBuf : Space → Nat
  | .hbm => 14
  | .vmem => 10
  | .smem => 0
  | _ => 0

abbrev bufTy : (tb : Table) → Fin (tcTables nBuf tb) → BufTy
  | .hbm, ⟨0, _⟩ => ⟨S16x32x512x512, .f32⟩
  | .hbm, ⟨1, _⟩ => ⟨S512x512x512, .f32⟩
  | .hbm, ⟨2, _⟩ => ⟨S512x256x2x256x2, .f32⟩
  | .hbm, ⟨3, _⟩ => ⟨S512x256x1x256x1, .f32⟩
  | .hbm, ⟨4, _⟩ => ⟨S512x256x256, .f32⟩
  | .hbm, ⟨5, _⟩ => ⟨S512x256x1x256x1, .f32⟩
  | .hbm, ⟨6, _⟩ => ⟨S512x256x256, .f32⟩
  | .hbm, ⟨7, _⟩ => ⟨S512x256x1x256x1, .f32⟩
  | .hbm, ⟨8, _⟩ => ⟨S512x256x256, .f32⟩
  | .hbm, ⟨9, _⟩ => ⟨S512x256x1x256x1, .f32⟩
  | .hbm, ⟨10, _⟩ => ⟨S512x256x256, .f32⟩
  | .hbm, ⟨11, _⟩ => ⟨S512x4x256x256, .f32⟩
  | .hbm, ⟨12, _⟩ => ⟨S16x32x4x256x256, .f32⟩
  | .hbm, ⟨13, _⟩ => ⟨S16x128x256x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S8x4x256x256, .f32⟩
  | .local _ .vmem, ⟨9, _⟩ => ⟨S8x4x256x256, .f32⟩
  | _, _ => ⟨S16x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x32x512x512_S512x512x512 : S16x32x512x512.ShapeCasts S512x512x512
  shapeCasts_S512x512x512_S512x256x2x256x2 : S512x512x512.ShapeCasts S512x256x2x256x2
  slices_S512x256x2x256x2_S512x256x1x256x1_0_0_0_0_0 : S512x256x2x256x2.Slices ![0, 0, 0, 0, 0] S512x256x1x256x1
  shapeCasts_S512x256x1x256x1_S512x256x256 : S512x256x1x256x1.ShapeCasts S512x256x256
  slices_S512x256x2x256x2_S512x256x1x256x1_0_0_0_0_1 : S512x256x2x256x2.Slices ![0, 0, 0, 0, 1] S512x256x1x256x1
  slices_S512x256x2x256x2_S512x256x1x256x1_0_0_1_0_0 : S512x256x2x256x2.Slices ![0, 0, 1, 0, 0] S512x256x1x256x1
  slices_S512x256x2x256x2_S512x256x1x256x1_0_0_1_0_1 : S512x256x2x256x2.Slices ![0, 0, 1, 0, 1] S512x256x1x256x1
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  inb_S8x4x256x256_S8x1x256x256_0_0_0_0 : ∀ a, (![0, 0, 0, 0] : Fin 4 → Nat) a + S8x1x256x256.size a ≤ S8x4x256x256.size a
  h_S8x1x256x256 : 0 < S8x1x256x256.numel
  shapeCasts_S8x1x256x256_S8x256x256 : S8x1x256x256.ShapeCasts S8x256x256
  shapeCasts_S8x256x256_S8x1x256x256 : S8x256x256.ShapeCasts S8x1x256x256
  inb_S8x4x256x256_S8x1x256x256_0_1_0_0 : ∀ a, (![0, 1, 0, 0] : Fin 4 → Nat) a + S8x1x256x256.size a ≤ S8x4x256x256.size a
  inb_S8x4x256x256_S8x1x256x256_0_2_0_0 : ∀ a, (![0, 2, 0, 0] : Fin 4 → Nat) a + S8x1x256x256.size a ≤ S8x4x256x256.size a
  inb_S8x4x256x256_S8x1x256x256_0_3_0_0 : ∀ a, (![0, 3, 0, 0] : Fin 4 → Nat) a + S8x1x256x256.size a ≤ S8x4x256x256.size a
  shapeCasts_S512x4x256x256_S16x32x4x256x256 : S512x4x256x256.ShapeCasts S16x32x4x256x256
  shapeCasts_S16x32x4x256x256_S16x128x256x256 : S16x32x4x256x256.ShapeCasts S16x128x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S512x256x256.size a
  hwx0_0 : ∀ i : grid0.Coords, EltTy.bits .f32 = 32 ∨ (Rect.block (s := S512x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S512x256x256.size a
  hwx0_1 : ∀ i : grid0.Coords, EltTy.bits .f32 = 32 ∨ (Rect.block (s := S512x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S512x256x256.size a
  hwx0_2 : ∀ i : grid0.Coords, EltTy.bits .f32 = 32 ∨ (Rect.block (s := S512x256x256) S8x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S512x256x256.size a
  hwx0_3 : ∀ i : grid0.Coords, EltTy.bits .f32 = 32 ∨ (Rect.block (s := S512x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x4x256x256.size a ≤ S512x4x256x256.size a
  hwx0_4 : ∀ i : grid0.Coords, EltTy.bits .f32 = 32 ∨ (Rect.block (s := S512x4x256x256) S8x4x256x256.size (cc0_transform_4 i) (hinb0_4 i)).WholeWords (EltTy.packing .f32)

variable [Facts₀]

abbrev win0_0 : Pipeline.Window sig grid0 :=
  Pipeline.Window.ofSpec (Memref.whole main_v3) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8x4x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x32x512x512 : Shape := ⟨4, ![16, 32, 512, 512]⟩
abbrev S16x32x256x2x256x2 : Shape := ⟨6, ![16, 32, 256, 2, 256, 2]⟩
abbrev S16x32x256x1x256x1 : Shape := ⟨6, ![16, 32, 256, 1, 256, 1]⟩
abbrev S16x32x256x256 : Shape := ⟨4, ![16, 32, 256, 256]⟩
abbrev S_ : Shape := ⟨0, ![]⟩
abbrev S16x32x1x256x256 : Shape := ⟨5, ![16, 32, 1, 256, 256]⟩
abbrev S16x32x4x256x256 : Shape := ⟨5, ![16, 32, 4, 256, 256]⟩
abbrev S16x128x256x256 : Shape := ⟨4, ![16, 128, 256, 256]⟩

abbrev nBuf : Space → Nat
  | .hbm => 40
  | .vmem => 0
  | .smem => 0
  | _ => 0

abbrev bufTy : (tb : Table) → Fin (tcTables nBuf tb) → BufTy
  | .hbm, ⟨0, _⟩ => ⟨S16x32x512x512, .f32⟩
  | .hbm, ⟨1, _⟩ => ⟨S16x32x256x2x256x2, .f32⟩
  | .hbm, ⟨2, _⟩ => ⟨S16x32x256x1x256x1, .f32⟩
  | .hbm, ⟨3, _⟩ => ⟨S16x32x256x256, .f32⟩
  | .hbm, ⟨4, _⟩ => ⟨S16x32x256x1x256x1, .f32⟩
  | .hbm, ⟨5, _⟩ => ⟨S16x32x256x256, .f32⟩
  | .hbm, ⟨6, _⟩ => ⟨S16x32x256x1x256x1, .f32⟩
  | .hbm, ⟨7, _⟩ => ⟨S16x32x256x256, .f32⟩
  | .hbm, ⟨8, _⟩ => ⟨S16x32x256x1x256x1, .f32⟩
  | .hbm, ⟨9, _⟩ => ⟨S16x32x256x256, .f32⟩
  | .hbm, ⟨10, _⟩ => ⟨S16x32x256x256, .f32⟩
  | .hbm, ⟨11, _⟩ => ⟨S16x32x256x256, .f32⟩
  | .hbm, ⟨12, _⟩ => ⟨S16x32x256x256, .f32⟩
  | .hbm, ⟨13, _⟩ => ⟨S_, .f32⟩
  | .hbm, ⟨14, _⟩ => ⟨S16x32x256x256, .f32⟩
  | .hbm, ⟨15, _⟩ => ⟨S16x32x256x256, .f32⟩
  | .hbm, ⟨16, _⟩ => ⟨S16x32x256x256, .f32⟩
  | .hbm, ⟨17, _⟩ => ⟨S16x32x256x256, .f32⟩
  | .hbm, ⟨18, _⟩ => ⟨S16x32x256x256, .f32⟩
  | .hbm, ⟨19, _⟩ => ⟨S_, .f32⟩
  | .hbm, ⟨20, _⟩ => ⟨S16x32x256x256, .f32⟩
  | .hbm, ⟨21, _⟩ => ⟨S16x32x256x256, .f32⟩
  | .hbm, ⟨22, _⟩ => ⟨S16x32x256x256, .f32⟩
  | .hbm, ⟨23, _⟩ => ⟨S16x32x256x256, .f32⟩
  | .hbm, ⟨24, _⟩ => ⟨S16x32x256x256, .f32⟩
  | .hbm, ⟨25, _⟩ => ⟨S_, .f32⟩
  | .hbm, ⟨26, _⟩ => ⟨S16x32x256x256, .f32⟩
  | .hbm, ⟨27, _⟩ => ⟨S16x32x256x256, .f32⟩
  | .hbm, ⟨28, _⟩ => ⟨S16x32x256x256, .f32⟩
  | .hbm, ⟨29, _⟩ => ⟨S16x32x256x256, .f32⟩
  | .hbm, ⟨30, _⟩ => ⟨S16x32x256x256, .f32⟩
  | .hbm, ⟨31, _⟩ => ⟨S_, .f32⟩
  | .hbm, ⟨32, _⟩ => ⟨S16x32x256x256, .f32⟩
  | .hbm, ⟨33, _⟩ => ⟨S16x32x256x256, .f32⟩
  | .hbm, ⟨34, _⟩ => ⟨S16x32x1x256x256, .f32⟩
  | .hbm, ⟨35, _⟩ => ⟨S16x32x1x256x256, .f32⟩
  | .hbm, ⟨36, _⟩ => ⟨S16x32x1x256x256, .f32⟩
  | .hbm, ⟨37, _⟩ => ⟨S16x32x1x256x256, .f32⟩
  | .hbm, ⟨38, _⟩ => ⟨S16x32x4x256x256, .f32⟩
  | .hbm, ⟨39, _⟩ => ⟨S16x128x256x256, .f32⟩
  | _, _ => ⟨S16x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]

class Facts₀ : Prop where
  shapeCasts_S16x32x512x512_S16x32x256x2x256x2 : S16x32x512x512.ShapeCasts S16x32x256x2x256x2
  slices_S16x32x256x2x256x2_S16x32x256x1x256x1_0_0_0_0_0_0 : S16x32x256x2x256x2.Slices ![0, 0, 0, 0, 0, 0] S16x32x256x1x256x1
  shapeCasts_S16x32x256x1x256x1_S16x32x256x256 : S16x32x256x1x256x1.ShapeCasts S16x32x256x256
  slices_S16x32x256x2x256x2_S16x32x256x1x256x1_0_0_0_0_0_1 : S16x32x256x2x256x2.Slices ![0, 0, 0, 0, 0, 1] S16x32x256x1x256x1
  slices_S16x32x256x2x256x2_S16x32x256x1x256x1_0_0_0_1_0_0 : S16x32x256x2x256x2.Slices ![0, 0, 0, 1, 0, 0] S16x32x256x1x256x1
  slices_S16x32x256x2x256x2_S16x32x256x1x256x1_0_0_0_1_0_1 : S16x32x256x2x256x2.Slices ![0, 0, 0, 1, 0, 1] S16x32x256x1x256x1
  bcast_S_S16x32x256x256 : S_.BroadcastsInDim S16x32x256x256 (![] : Fin 0 → Fin S16x32x256x256.rank)
  bcast_S16x32x256x256_S16x32x1x256x256_0_1_3_4 : S16x32x256x256.BroadcastsInDim S16x32x1x256x256 (![0, 1, 3, 4] : Fin 4 → Fin S16x32x1x256x256.rank)
  concatenates_S16x32x1x256x256_S16x32x1x256x256_S16x32x1x256x256_S16x32x1x256x256_S16x32x4x256x256_d2 : Shape.Concatenates [S16x32x1x256x256, S16x32x1x256x256, S16x32x1x256x256, S16x32x1x256x256] S16x32x4x256x256 2
  shapeCasts_S16x32x4x256x256_S16x128x256x256 : S16x32x4x256x256.ShapeCasts S16x128x256x256

variable [Facts₀]

class Facts : Prop extends Facts₀ where

variable [Facts]
-- ==== Proof.HaarSpec.lean ====
/-
  The single-level two-dimensional Haar transform, as one function of the input array.

  The input is an array `x` of shape [16, 32, 512, 512]: 16·32 images of 512 × 512. Each image is cut into 2 × 2
  patches; the patch at row `r`, column `c` of the 256 × 256 patch grid holds
      p = x[2r, 2c]     q = x[2r, 2c+1]     r' = x[2r+1, 2c]     s = x[2r+1, 2c+1].
  Every patch yields four coefficients, each a signed sum of the four entries, halved:
      k = 0 :  ((p + q) + r') + s      k = 1 :  ((p + q) - r') - s
      k = 2 :  ((p - q) + r') - s      k = 3 :  ((p - q) - r') + s            (each times 1/2).
  The output has shape [16, 128, 256, 256]; its channel `ch` holds coefficient `ch % 4` of input channel `ch / 4`.

  The sums are kept in the order written (no reassociation), so the function makes sense over any float instance and no
  law of arithmetic is needed to meet either program: both compute exactly these trees of operations.
-/
import Idealize.ShloMosaic.Lib.ValueIdx

namespace Cert.Haar

open Idealize.ShloMosaic Idealize.ShloMosaic.ValueIdx

variable {F : FTy → Type} [FloatOps F]

/-- One half, by its f32 word. -/
def half : F .f32 := FloatOps.ofBits .f32 0x3F000000#32

/-- Coefficient `k` of a 2 × 2 patch with entries `p q` (upper row) and `r s` (lower row). -/
def coef (k : Nat) (p q r s : F .f32) : F .f32 :=
  if k = 0 then FloatOps.mulf (FloatOps.addf (FloatOps.addf (FloatOps.addf p q) r) s) half
  else if k = 1 then FloatOps.mulf (FloatOps.subf (FloatOps.subf (FloatOps.addf p q) r) s) half
  else if k = 2 then FloatOps.mulf (FloatOps.subf (FloatOps.addf (FloatOps.subf p q) r) s) half
  else FloatOps.mulf (FloatOps.addf (FloatOps.subf (FloatOps.subf p q) r) s) half

theorem coef_zero (p q r s : F .f32) :
    coef 0 p q r s = FloatOps.mulf (FloatOps.addf (FloatOps.addf (FloatOps.addf p q) r) s) half := rfl
theorem coef_one (p q r s : F .f32) :
    coef 1 p q r s = FloatOps.mulf (FloatOps.subf (FloatOps.subf (FloatOps.addf p q) r) s) half := rfl
theorem coef_two (p q r s : F .f32) :
    coef 2 p q r s = FloatOps.mulf (FloatOps.subf (FloatOps.addf (FloatOps.subf p q) r) s) half := rfl
theorem coef_three (p q r s : F .f32) :
    coef 3 p q r s = FloatOps.mulf (FloatOps.addf (FloatOps.subf (FloatOps.subf p q) r) s) half := rfl

/-- The input's shape and the output's. -/
abbrev Sin : Shape := ⟨4, ![16, 32, 512, 512]⟩
abbrev Sout : Shape := ⟨4, ![16, 128, 256, 256]⟩

/-- The input entry an output element reads at offset `(a, b)` inside its patch: same batch, input channel `ch / 4`,
    row `2·r + a`, column `2·c + b`. -/
def src (i : Sout.Idx) (a b : Nat) (ha : a < 2 := by decide) (hb : b < 2 := by decide) : Sin.Idx :=
  ix4 (n0 := 16) (n1 := 32) (n2 := 512) (n3 := 512) ⟨(i 0).val, (i 0).isLt⟩
    ⟨(i 1).val / 4, by have h : (i 1).val < 128 := (i 1).isLt; omega⟩
    ⟨2 * (i 2).val + a, by have h : (i 2).val < 256 := (i 2).isLt; omega⟩
    ⟨2 * (i 3).val + b, by have h : (i 3).val < 256 := (i 3).isLt; omega⟩

/-- The transform: output element `i` is coefficient `ch % 4` of its patch. -/
def dwt (x : Sin.Idx → F .f32) : Sout.Idx → F .f32 := fun i =>
  coef ((i 1).val % 4) (x (src i 0 0)) (x (src i 0 1)) (x (src i 1 0)) (x (src i 1 1))

end Cert.Haar
-- ==== Proof.Block.lean ====
/-
  What the kernel body leaves in its output block, element by element.

  The body loads four blocks `x0 x1 x2 x3` of shape [8, 256, 256] (eight images' worth of the four patch entries) and
  makes four stores into its [8, 4, 256, 256] output block: the store at offset `k` on the second axis holds coefficient
  `k` of every patch. So element `(j, k, r, c)` of the block is coefficient `k` of the entries at `(j, r, c)` of the four
  loaded blocks. Each store's payload is a [8, 256, 256] array recast to [8, 1, 256, 256]; the recast keeps row-major
  positions, so the payload at `(j, 0, r, c)` is the array at `(j, r, c)`.
-/
import proofs.«125460_j16166256902650_2_alg».proof.Proof.Gen.KernelIdeal.Frame
import proofs.«125460_j16166256902650_2_alg».proof.Proof.HaarSpec
import Idealize.ShloMosaic.Lib.Pipeline.Value
import Idealize.ShloMosaic.Lib.ValueIdx

set_option maxRecDepth 16384

noncomputable section

namespace Cert.KernelIdeal.Wavelet

open Idealize.ShloMosaic Idealize.ShloMosaic.ValueIdx Idealize.SL.Sem
open Cert.KernelIdeal Cert.KernelIdeal.Gen

variable {F : FTy → Type} [FloatOps F]

/-- The position, inside a loaded block, of the patch an output-block element belongs to: drop the coefficient axis. -/
def patchOf (y : S8x4x256x256.Idx) : S8x256x256.Idx :=
  ix3 (n0 := 8) (n1 := 256) (n2 := 256) ⟨(y 0).val, (y 0).isLt⟩ ⟨(y 2).val, (y 2).isLt⟩ ⟨(y 3).val, (y 3).isLt⟩

/-- The output block as one function of the four loaded blocks. -/
def blockOut (x0 x1 x2 x3 : Vec F S8x256x256 .f32) : Vec F S8x4x256x256 .f32 := fun y =>
  Haar.coef (y 1).val (x0 (patchOf y)) (x1 (patchOf y)) (x2 (patchOf y)) (x3 (patchOf y))

theorem zeros3 : (![0, 0, 0] : Fin 3 → Nat) = fun _ => 0 := funext fun a => by fin_cases a <;> rfl

/-- A [8, 256, 256] array recast to [8, 1, 256, 256], read at a position of the store's rectangle at offset `k`: the array
    at the patch position of the block element the rectangle places it at. -/
theorem recast_apply (k : Nat) (inb) (v : FVec F S8x256x256 .f32) (h : S8x256x256.ShapeCasts S8x1x256x256)
    (z : S8x1x256x256.Idx) :
    shapeCast S8x1x256x256 v h z
      = v (patchOf ((Rect.unit (s := S8x4x256x256) ![0, k, 0, 0] S8x1x256x256.size inb).emb z)) := by
  refine shapeCast_apply v h z _ ?_
  rw [Shape.rowMajor_val_three, Shape.rowMajor_val_four]
  have h1 : (z 1).val < 1 := (z 1).isLt
  show ((0 + 1 * (z 0).val) * 256 + (0 + 1 * (z 2).val)) * 256 + (0 + 1 * (z 3).val)
      = (((z 0).val * 1 + (z 1).val) * 256 + (z 2).val) * 256 + (z 3).val
  omega

/-- The coefficient axis of the block element a store's rectangle at offset `k` places `z` at is `k`. -/
theorem emb_coef (k : Nat) (inb) (z : S8x1x256x256.Idx) :
    ((Rect.unit (s := S8x4x256x256) ![0, k, 0, 0] S8x1x256x256.size inb).emb z 1).val = k := by
  have h1 : (z 1).val < 1 := (z 1).isLt
  show k + 1 * (z 1).val = k
  omega

/-- The four payloads are the four coefficients. -/
theorem pay_ll (x0 x1 x2 x3 : Vec F S8x256x256 .f32) (z : S8x1x256x256.Idx) :
    k0_pay9 x0 x1 x2 x3 z = blockOut x0 x1 x2 x3 (r0_1.emb z) := by
  unfold k0_pay9 blockOut
  rw [recast_apply 0, emb_coef 0, Haar.coef_zero]
  simp only [k0_pay3, k0_pay4, k0_pay5, k0_pay6, shapeCast_self]
  rfl

theorem pay_lh (x0 x1 x2 x3 : Vec F S8x256x256 .f32) (z : S8x1x256x256.Idx) :
    k0_pay10 x0 x1 x2 x3 z = blockOut x0 x1 x2 x3 (r0_2.emb z) := by
  unfold k0_pay10 blockOut
  rw [recast_apply 1, emb_coef 1, Haar.coef_one]
  simp only [k0_pay3, k0_pay4, k0_pay5, k0_pay6, shapeCast_self]
  rfl

theorem pay_hl (x0 x1 x2 x3 : Vec F S8x256x256 .f32) (z : S8x1x256x256.Idx) :
    k0_pay1 (k0_pay7 x0 x1 x2 x3) z = blockOut x0 x1 x2 x3 (r0_3.emb z) := by
  unfold k0_pay1 k0_pay7 blockOut
  rw [recast_apply 2, emb_coef 2, Haar.coef_two]
  simp only [k0_pay3, k0_pay4, k0_pay5, k0_pay6, shapeCast_self]
  rfl

theorem pay_hh (x0 x1 x2 x3 : Vec F S8x256x256 .f32) (z : S8x1x256x256.Idx) :
    k0_pay2 (k0_pay8 x0 x1 x2 x3) z = blockOut x0 x1 x2 x3 (r0_4.emb z) := by
  unfold k0_pay2 k0_pay8 blockOut
  rw [recast_apply 3, emb_coef 3, Haar.coef_three]
  simp only [k0_pay3, k0_pay4, k0_pay5, k0_pay6, shapeCast_self]
  rfl

/-- The body's output block is `blockOut` of its loaded blocks: every store's payload agrees with it on the store's
    rectangle, and the four rectangles cover the block. -/
theorem out_eq (x0 x1 x2 x3 : Vec F S8x256x256 .f32) : out0_4 x0 x1 x2 x3 = blockOut x0 x1 x2 x3 := by
  funext y
  unfold out0_4
  simp only [View.ld_unit_zero (S := S8x256x256) zeros3]
  refine View.canon_apply_of_pieces (blockOut x0 x1 x2 x3) _ ?_ y (cover0_4 _ _ _ _ y)
  intro p hp
  simp only [List.mem_cons, List.mem_nil_iff, or_false] at hp
  rcases hp with rfl | rfl | rfl | rfl
  · exact fun z => pay_hh x0 x1 x2 x3 z
  · exact fun z => pay_hl x0 x1 x2 x3 z
  · exact fun z => pay_lh x0 x1 x2 x3 z
  · exact fun z => pay_ll x0 x1 x2 x3 z

end Cert.KernelIdeal.Wavelet

end
-- ==== Proof.RegionArray.lean ====
/-
  The array the kernel region leaves: every block written back is a block of one function of the four patch-entry arrays.

  The region runs over 64 grid points. At point `t` it fetches rows `8t … 8t+7` of each of the four input arrays
  (shape [512, 256, 256]: the entries p, q, r, s of every patch of every image) and writes back rows `8t … 8t+7` of the
  output array (shape [512, 4, 256, 256]). Since the body's block is `blockOut` of the fetched blocks, and an element's
  row in the array is `8t` plus its row in the block on both sides, the block written back at `t` is block `t` of
  `regionOut`: element `(n, k, r, c)` is coefficient `k` of the entries at `(n, r, c)`. The 64 blocks tile the array (row
  `n` lies in block `n / 8`), so the array ends equal to `regionOut` everywhere.
-/
import proofs.«125460_j16166256902650_2_alg».proof.Proof.Block

set_option maxRecDepth 16384

noncomputable section

namespace Cert.KernelIdeal.Wavelet

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The position, in a patch-entry array, of the patch an element of the region's output array belongs to. -/
def patchAt (i : S512x4x256x256.Idx) : S512x256x256.Idx :=
  ix3 (n0 := 512) (n1 := 256) (n2 := 256) ⟨(i 0).val, (i 0).isLt⟩ ⟨(i 2).val, (i 2).isLt⟩ ⟨(i 3).val, (i 3).isLt⟩

/-- The region's output array as one function of the four patch-entry arrays. -/
def regionOut (p q r s : S512x256x256.Idx → Elt F .f32) : S512x4x256x256.Idx → Elt F .f32 := fun i =>
  Haar.coef (i 1).val (p (patchAt i)) (q (patchAt i)) (r (patchAt i)) (s (patchAt i))

/-- The windows' block indices over the grid: every window moves along the leading axis only, one block per point. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 4) = t.val ∧ win0_4.index t (1 : Fin 4) = 0 ∧ win0_4.index t (2 : Fin 4) = 0
      ∧ win0_4.index t (3 : Fin 4) = 0 :=
  (by decide +kernel : ∀ t : Fin grid0.N, _)

/-- What point `t` writes back is block `t` of `regionOut` of the arrays as the region finds them. -/
theorem flushed_eq (c : Dev nD) (t : Fin cfg0.N) :
    (dats m 0 c).flushed 4 t = ((cfg0.win 4).blk t).view.read (Elt F)
      (regionOut (V m c main_v3) (V m c main_v5) (V m c main_v7) (V m c main_v9)) := by
  show (cfg0.win 4).cut (grid0.coords t) ((dats m 0 c).after 4 t) = _
  rw [after0_4, out_eq]
  obtain ⟨a0, a1, a2, b0, b1, b2, c0, c1, c2, d0, d1, d2, e0, e1, e2, e3⟩ := block_indices t
  funext y
  show Haar.coef (y 1).val (V m c main_v3 (((cfg0.win 0).blk t).view.emb (patchOf y)))
        (V m c main_v5 (((cfg0.win 1).blk t).view.emb (patchOf y)))
        (V m c main_v7 (((cfg0.win 2).blk t).view.emb (patchOf y)))
        (V m c main_v9 (((cfg0.win 3).blk t).view.emb (patchOf y)))
      = Haar.coef ((((cfg0.win 4).blk t).view.emb y) 1).val
        (V m c main_v3 (patchAt (((cfg0.win 4).blk t).view.emb y)))
        (V m c main_v5 (patchAt (((cfg0.win 4).blk t).view.emb y)))
        (V m c main_v7 (patchAt (((cfg0.win 4).blk t).view.emb y)))
        (V m c main_v9 (patchAt (((cfg0.win 4).blk t).view.emb y)))
  have hk : ((((cfg0.win 4).blk t).view.emb y) 1).val = (y 1).val := by
    show win0_4.index t (1 : Fin 4) * 4 + 1 * (y 1).val = (y 1).val
    omega
  have h0 : ((cfg0.win 0).blk t).view.emb (patchOf y) = patchAt (((cfg0.win 4).blk t).view.emb y) := by
    funext a; apply Fin.ext
    match a with
    | ⟨0, _⟩ => show win0_0.index t (0 : Fin 3) * 8 + 1 * (y 0).val = win0_4.index t (0 : Fin 4) * 8 + 1 * (y 0).val; omega
    | ⟨1, _⟩ => show win0_0.index t (1 : Fin 3) * 256 + 1 * (y 2).val = win0_4.index t (2 : Fin 4) * 256 + 1 * (y 2).val; omega
    | ⟨2, _⟩ => show win0_0.index t (2 : Fin 3) * 256 + 1 * (y 3).val = win0_4.index t (3 : Fin 4) * 256 + 1 * (y 3).val; omega
  have h1 : ((cfg0.win 1).blk t).view.emb (patchOf y) = patchAt (((cfg0.win 4).blk t).view.emb y) := by
    funext a; apply Fin.ext
    match a with
    | ⟨0, _⟩ => show win0_1.index t (0 : Fin 3) * 8 + 1 * (y 0).val = win0_4.index t (0 : Fin 4) * 8 + 1 * (y 0).val; omega
    | ⟨1, _⟩ => show win0_1.index t (1 : Fin 3) * 256 + 1 * (y 2).val = win0_4.index t (2 : Fin 4) * 256 + 1 * (y 2).val; omega
    | ⟨2, _⟩ => show win0_1.index t (2 : Fin 3) * 256 + 1 * (y 3).val = win0_4.index t (3 : Fin 4) * 256 + 1 * (y 3).val; omega
  have h2 : ((cfg0.win 2).blk t).view.emb (patchOf y) = patchAt (((cfg0.win 4).blk t).view.emb y) := by
    funext a; apply Fin.ext
    match a with
    | ⟨0, _⟩ => show win0_2.index t (0 : Fin 3) * 8 + 1 * (y 0).val = win0_4.index t (0 : Fin 4) * 8 + 1 * (y 0).val; omega
    | ⟨1, _⟩ => show win0_2.index t (1 : Fin 3) * 256 + 1 * (y 2).val = win0_4.index t (2 : Fin 4) * 256 + 1 * (y 2).val; omega
    | ⟨2, _⟩ => show win0_2.index t (2 : Fin 3) * 256 + 1 * (y 3).val = win0_4.index t (3 : Fin 4) * 256 + 1 * (y 3).val; omega
  have h3 : ((cfg0.win 3).blk t).view.emb (patchOf y) = patchAt (((cfg0.win 4).blk t).view.emb y) := by
    funext a; apply Fin.ext
    match a with
    | ⟨0, _⟩ => show win0_3.index t (0 : Fin 3) * 8 + 1 * (y 0).val = win0_4.index t (0 : Fin 4) * 8 + 1 * (y 0).val; omega
    | ⟨1, _⟩ => show win0_3.index t (1 : Fin 3) * 256 + 1 * (y 2).val = win0_4.index t (2 : Fin 4) * 256 + 1 * (y 2).val; omega
    | ⟨2, _⟩ => show win0_3.index t (2 : Fin 3) * 256 + 1 * (y 3).val = win0_4.index t (3 : Fin 4) * 256 + 1 * (y 3).val; omega
  rw [hk, h0, h1, h2, h3]

/-- An element of the output array is in point `t`'s block iff each coordinate is in the block's range on its axis. -/
theorem mem_blk (t : Fin cfg0.N) (i : S512x4x256x256.Idx) :
    i ∈ ((cfg0.win 4).blk t).view.set ↔ ∀ a : Fin 4, win0_4.index t a * S8x4x256x256.size a ≤ (i a).val
      ∧ (i a).val < win0_4.index t a * S8x4x256x256.size a + S8x4x256x256.size a := by
  show i ∈ ((View.whole main_v10).slice (win0_4.rect t)).set ↔ _
  rw [View.set_slice_whole, Rect.mem_set_unit]
  exact Iff.rfl

/-- The blocks tile the array: row `n` lies in the block of point `n / 8`. -/
theorem covered (i : S512x4x256x256.Idx) :
    ∃ t : Fin cfg0.N, (cfg0.win 4).flush t = true ∧ i ∈ ((cfg0.win 4).blk t).view.set := by
  have hi0 : (i 0).val < 512 := (i 0).isLt
  have hi1 : (i 1).val < 4 := (i 1).isLt
  have hi2 : (i 2).val < 256 := (i 2).isLt
  have hi3 : (i 3).val < 256 := (i 3).isLt
  have hN : cfg0.N = 64 := N_0
  let t : Fin cfg0.N := ⟨(i 0).val / 8, by rw [hN]; omega⟩
  have ht : t.val = (i 0).val / 8 := rfl
  obtain ⟨a0, a1, a2, b0, b1, b2, c0, c1, c2, d0, d1, d2, e0, e1, e2, e3⟩ := block_indices t
  refine ⟨t, flush0_4 t, ?_⟩
  rw [mem_blk]
  intro a
  match a with
  | ⟨0, _⟩ => show win0_4.index t (0 : Fin 4) * 8 ≤ (i 0).val ∧ (i 0).val < win0_4.index t (0 : Fin 4) * 8 + 8; omega
  | ⟨1, _⟩ => show win0_4.index t (1 : Fin 4) * 4 ≤ (i 1).val ∧ (i 1).val < win0_4.index t (1 : Fin 4) * 4 + 4; omega
  | ⟨2, _⟩ => show win0_4.index t (2 : Fin 4) * 256 ≤ (i 2).val ∧ (i 2).val < win0_4.index t (2 : Fin 4) * 256 + 256; omega
  | ⟨3, _⟩ => show win0_4.index t (3 : Fin 4) * 256 ≤ (i 3).val ∧ (i 3).val < win0_4.index t (3 : Fin 4) * 256 + 256; omega

/-- The output array after the region is `regionOut` of the four patch-entry arrays as the region finds them. -/
theorem region_array (c : Dev nD) :
    (dats m 0 c).arrAt 4 cfg0.N = regionOut (V m c main_v3) (V m c main_v5) (V m c main_v7) (V m c main_v9) :=
  (dats m 0 c).arrAt_eq_of_cover 4 _ (fun t _ => flushed_eq m c t) covered

end Cert.KernelIdeal.Wavelet

end
-- ==== Proof.Quadrants.lean ====
/-
  The four patch-entry arrays the region is launched on, read at an index.

  Before the region the program views its input [16, 32, 512, 512] as 512 images [512, 512, 512], then as
  [512, 256, 2, 256, 2] — image, patch row, row inside the patch, patch column, column inside the patch —, cuts the slice
  at row offset `a` and column offset `b` inside the patch (a [512, 256, 1, 256, 1] array) and drops the two unit axes.
  Every step but the slice keeps row-major positions, and the slice shifts two coordinates by `a` and `b`. So the array
  for offsets `(a, b)` holds at `(n, r, c)` the input entry of image `n` — batch `n / 32`, channel `n % 32` — at row
  `2r + a`, column `2c + b`.
-/
import proofs.«125460_j16166256902650_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Wavelet

open Idealize.ShloMosaic Idealize.ShloMosaic.TcCoe Idealize.ShloMosaic.ValueIdx Idealize.SL.Sem
open Idealize.ShloMosaic.StableHlo
open Cert.KernelIdeal Cert.KernelIdeal.Gen

variable {F : FTy → Type} [FloatOps F]
variable (m : (ℓ : Loc nD τ sig) → Buf (Elt F) ℓ)

/-- The input entry at offset `(a, b)` of the patch at position `z = (n, r, c)` of a patch-entry array. -/
def entryAt (z : S512x256x256.Idx) (a b : Nat) (ha : a < 2 := by decide) (hb : b < 2 := by decide) :
    S16x32x512x512.Idx :=
  ix4 (n0 := 16) (n1 := 32) (n2 := 512) (n3 := 512)
    ⟨(z 0).val / 32, by have h : (z 0).val < 512 := (z 0).isLt; omega⟩
    ⟨(z 0).val % 32, by omega⟩
    ⟨2 * (z 1).val + a, by have h : (z 1).val < 256 := (z 1).isLt; omega⟩
    ⟨2 * (z 2).val + b, by have h : (z 2).val < 256 := (z 2).isLt; omega⟩

/-- The chain of recasts and the slice at patch offsets `(a, b)`, read at `z`. -/
theorem quadrant_apply {α : Type} (x : S16x32x512x512.Idx → α) (a b : Nat) (ha : a < 2) (hb : b < 2)
    (h1 : S16x32x512x512.ShapeCasts S512x512x512) (h2 : S512x512x512.ShapeCasts S512x256x2x256x2)
    (hs : S512x256x2x256x2.Slices ![0, 0, a, 0, b] S512x256x1x256x1)
    (h3 : S512x256x1x256x1.ShapeCasts S512x256x256) (z : S512x256x256.Idx) :
    shapeCast S512x256x256 (extractStridedSlice S512x256x1x256x1 ![0, 0, a, 0, b]
      (shapeCast S512x256x2x256x2 (shapeCast S512x512x512 x h1) h2) hs) h3 z = x (entryAt z a b ha hb) := by
  have hz0 : (z 0).val < 512 := (z 0).isLt
  have hz1 : (z 1).val < 256 := (z 1).isLt
  have hz2 : (z 2).val < 256 := (z 2).isLt
  -- drop the unit axes
  refine (shapeCast_apply _ h3 z (ix5 (n0 := 512) (n1 := 256) (n2 := 1) (n3 := 256) (n4 := 1)
    ⟨(z 0).val, hz0⟩ ⟨(z 1).val, hz1⟩ ⟨0, by omega⟩ ⟨(z 2).val, hz2⟩ ⟨0, by omega⟩) ?_).trans ?_
  · rw [Shape.rowMajor_val_five, Shape.rowMajor_val_three]
    show ((((z 0).val * 256 + (z 1).val) * 1 + 0) * 256 + (z 2).val) * 1 + 0
        = ((z 0).val * 256 + (z 1).val) * 256 + (z 2).val
    omega
  -- the slice inside the patch
  refine (extractStridedSlice_apply _ _ hs _ (ix5 (n0 := 512) (n1 := 256) (n2 := 2) (n3 := 256) (n4 := 2)
    ⟨(z 0).val, hz0⟩ ⟨(z 1).val, hz1⟩ ⟨a, ha⟩ ⟨(z 2).val, hz2⟩ ⟨b, hb⟩) (fun ax => ?_)).trans ?_
  · match ax with
    | ⟨0, _⟩ => show (z 0).val = 0 + (z 0).val; omega
    | ⟨1, _⟩ => show (z 1).val = 0 + (z 1).val; omega
    | ⟨2, _⟩ => show a = a + 0; omega
    | ⟨3, _⟩ => show (z 2).val = 0 + (z 2).val; omega
    | ⟨4, _⟩ => show b = b + 0; omega
  -- patch coordinates to image coordinates
  refine (shapeCast_apply _ h2 _ (ix3 (n0 := 512) (n1 := 512) (n2 := 512)
    ⟨(z 0).val, hz0⟩ ⟨2 * (z 1).val + a, by omega⟩ ⟨2 * (z 2).val + b, by omega⟩) ?_).trans ?_
  · rw [Shape.rowMajor_val_three, Shape.rowMajor_val_five]
    show ((z 0).val * 512 + (2 * (z 1).val + a)) * 512 + (2 * (z 2).val + b)
        = ((((z 0).val * 256 + (z 1).val) * 2 + a) * 256 + (z 2).val) * 2 + b
    omega
  -- the image number to batch and channel
  refine shapeCast_apply _ h1 _ (entryAt z a b ha hb) ?_
  rw [Shape.rowMajor_val_four, Shape.rowMajor_val_three]
  show ((((z 0).val / 32) * 32 + (z 0).val % 32) * 512 + (2 * (z 1).val + a)) * 512 + (2 * (z 2).val + b)
      = ((z 0).val * 512 + (2 * (z 1).val + a)) * 512 + (2 * (z 2).val + b)
  omega

/-- The four arrays as the region finds them: the input's entries at the four offsets inside each patch. -/
theorem V_p (c : Dev nD) (z : S512x256x256.Idx) :
    V m c main_v3 z = m ((c : Thread nD τ).loc main_arg0) (entryAt z 0 0) := by
  have e : (V m c main_v3 : S512x256x256.Idx → Elt F .f32)
      = shapeCast S512x256x256 (extractStridedSlice S512x256x1x256x1 ![0, 0, 0, 0, 0]
          (shapeCast S512x256x2x256x2 (shapeCast S512x512x512 (m ((c : Thread nD τ).loc main_arg0))
            shapeCasts_S16x32x512x512_S512x512x512) shapeCasts_S512x512x512_S512x256x2x256x2)
          slices_S512x256x2x256x2_S512x256x1x256x1_0_0_0_0_0) shapeCasts_S512x256x1x256x1_S512x256x256 := by
    show StableHlo.after hostOps0 (fun b => m (c, b)) (Proc.devRef .tc main_v3) = _
    after_results; rfl
  rw [e]; exact quadrant_apply _ 0 0 (by decide) (by decide) _ _ _ _ z

theorem V_q (c : Dev nD) (z : S512x256x256.Idx) :
    V m c main_v5 z = m ((c : Thread nD τ).loc main_arg0) (entryAt z 0 1) := by
  have e : (V m c main_v5 : S512x256x256.Idx → Elt F .f32)
      = shapeCast S512x256x256 (extractStridedSlice S512x256x1x256x1 ![0, 0, 0, 0, 1]
          (shapeCast S512x256x2x256x2 (shapeCast S512x512x512 (m ((c : Thread nD τ).loc main_arg0))
            shapeCasts_S16x32x512x512_S512x512x512) shapeCasts_S512x512x512_S512x256x2x256x2)
          slices_S512x256x2x256x2_S512x256x1x256x1_0_0_0_0_1) shapeCasts_S512x256x1x256x1_S512x256x256 := by
    show StableHlo.after hostOps0 (fun b => m (c, b)) (Proc.devRef .tc main_v5) = _
    after_results; rfl
  rw [e]; exact quadrant_apply _ 0 1 (by decide) (by decide) _ _ _ _ z

theorem V_r (c : Dev nD) (z : S512x256x256.Idx) :
    V m c main_v7 z = m ((c : Thread nD τ).loc main_arg0) (entryAt z 1 0) := by
  have e : (V m c main_v7 : S512x256x256.Idx → Elt F .f32)
      = shapeCast S512x256x256 (extractStridedSlice S512x256x1x256x1 ![0, 0, 1, 0, 0]
          (shapeCast S512x256x2x256x2 (shapeCast S512x512x512 (m ((c : Thread nD τ).loc main_arg0))
            shapeCasts_S16x32x512x512_S512x512x512) shapeCasts_S512x512x512_S512x256x2x256x2)
          slices_S512x256x2x256x2_S512x256x1x256x1_0_0_1_0_0) shapeCasts_S512x256x1x256x1_S512x256x256 := by
    show StableHlo.after hostOps0 (fun b => m (c, b)) (Proc.devRef .tc main_v7) = _
    after_results; rfl
  rw [e]; exact quadrant_apply _ 1 0 (by decide) (by decide) _ _ _ _ z

theorem V_s (c : Dev nD) (z : S512x256x256.Idx) :
    V m c main_v9 z = m ((c : Thread nD τ).loc main_arg0) (entryAt z 1 1) := by
  have e : (V m c main_v9 : S512x256x256.Idx → Elt F .f32)
      = shapeCast S512x256x256 (extractStridedSlice S512x256x1x256x1 ![0, 0, 1, 0, 1]
          (shapeCast S512x256x2x256x2 (shapeCast S512x512x512 (m ((c : Thread nD τ).loc main_arg0))
            shapeCasts_S16x32x512x512_S512x512x512) shapeCasts_S512x512x512_S512x256x2x256x2)
          slices_S512x256x2x256x2_S512x256x1x256x1_0_0_1_0_1) shapeCasts_S512x256x1x256x1_S512x256x256 := by
    show StableHlo.after hostOps0 (fun b => m (c, b)) (Proc.devRef .tc main_v9) = _
    after_results; rfl
  rw [e]; exact quadrant_apply _ 1 1 (by decide) (by decide) _ _ _ _ z

end Cert.KernelIdeal.Wavelet

end
-- ==== Proof.KernelValue.lean ====
/-
  The kernel program's result is the transform `Haar.dwt` of its argument.

  After the region the program views the region's output array [512, 4, 256, 256] as [16, 32, 4, 256, 256] and then as
  [16, 128, 256, 256]; both steps keep row-major positions. Output element `(b, ch', r, c)` therefore reads the
  region's array at image `n = 32·b + ch' / 4`, coefficient `k = ch' % 4`, patch `(r, c)`. The region's array there is
  coefficient `k` of the four entries of that patch of image `n` (batch `n / 32 = b`, channel `n % 32 = ch' / 4`), which
  is what the transform says.
-/
import proofs.«125460_j16166256902650_2_alg».proof.Proof.RegionArray
import proofs.«125460_j16166256902650_2_alg».proof.Proof.Quadrants
import Idealize.ShloMosaic.Lib.StableHlo.Run

set_option maxRecDepth 16384

noncomputable section

namespace Cert.KernelIdeal.Wavelet

open Idealize.ShloMosaic Idealize.ShloMosaic.TcCoe Idealize.ShloMosaic.ValueIdx Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The element of the region's output array that output element `i` reads. -/
def regionIdx (i : S16x128x256x256.Idx) : S512x4x256x256.Idx :=
  ix4 (n0 := 512) (n1 := 4) (n2 := 256) (n3 := 256)
    ⟨(i 0).val * 32 + (i 1).val / 4, by
      have h0 : (i 0).val < 16 := (i 0).isLt; have h1 : (i 1).val < 128 := (i 1).isLt; omega⟩
    ⟨(i 1).val % 4, by omega⟩ ⟨(i 2).val, (i 2).isLt⟩ ⟨(i 3).val, (i 3).isLt⟩

/-- The two recasts after the region, read at `i`. -/
theorem tail_apply {α : Type} (A : S512x4x256x256.Idx → α) (h1 : S512x4x256x256.ShapeCasts S16x32x4x256x256)
    (h2 : S16x32x4x256x256.ShapeCasts S16x128x256x256) (i : S16x128x256x256.Idx) :
    shapeCast S16x128x256x256 (shapeCast S16x32x4x256x256 A h1) h2 i = A (regionIdx i) := by
  have hi0 : (i 0).val < 16 := (i 0).isLt
  have hi1 : (i 1).val < 128 := (i 1).isLt
  have hi2 : (i 2).val < 256 := (i 2).isLt
  have hi3 : (i 3).val < 256 := (i 3).isLt
  refine (shapeCast_apply _ h2 i (ix5 (n0 := 16) (n1 := 32) (n2 := 4) (n3 := 256) (n4 := 256)
    ⟨(i 0).val, hi0⟩ ⟨(i 1).val / 4, by omega⟩ ⟨(i 1).val % 4, by omega⟩ ⟨(i 2).val, hi2⟩ ⟨(i 3).val, hi3⟩) ?_).trans ?_
  · rw [Shape.rowMajor_val_five, Shape.rowMajor_val_four]
    show ((((i 0).val * 32 + (i 1).val / 4) * 4 + (i 1).val % 4) * 256 + (i 2).val) * 256 + (i 3).val
        = (((i 0).val * 128 + (i 1).val) * 256 + (i 2).val) * 256 + (i 3).val
    omega
  refine shapeCast_apply _ h1 _ (regionIdx i) ?_
  rw [Shape.rowMajor_val_four, Shape.rowMajor_val_five]
  show ((((i 0).val * 32 + (i 1).val / 4) * 4 + (i 1).val % 4) * 256 + (i 2).val) * 256 + (i 3).val
      = ((((i 0).val * 32 + (i 1).val / 4) * 4 + (i 1).val % 4) * 256 + (i 2).val) * 256 + (i 3).val
  rfl

/-- The input entries of the patch behind output element `i`, reached through the region's arrays, are the transform's. -/
theorem entry_src (i : S16x128x256x256.Idx) (a b : Nat) (ha : a < 2) (hb : b < 2) :
    entryAt (patchAt (regionIdx i)) a b ha hb = Haar.src i a b ha hb := by
  have hi0 : (i 0).val < 16 := (i 0).isLt
  have hi1 : (i 1).val < 128 := (i 1).isLt
  funext ax; apply Fin.ext
  match ax with
  | ⟨0, _⟩ => show ((i 0).val * 32 + (i 1).val / 4) / 32 = (i 0).val; omega
  | ⟨1, _⟩ => show ((i 0).val * 32 + (i 1).val / 4) % 32 = (i 1).val / 4; omega
  | ⟨2, _⟩ => show 2 * (i 2).val + a = 2 * (i 2).val + a; rfl
  | ⟨3, _⟩ => show 2 * (i 3).val + b = 2 * (i 3).val + b; rfl

/-- What the lines after the region leave in the result buffer: the transform of the argument. -/
theorem result_eq (c : Dev nD) :
    Pipeline.afterTail₀ cfgs (dats m) 0 (V0 m) [hostOps1] c main_v12
      = Haar.dwt (m ((c : Thread nD τ).loc main_arg0)) := by
  have e : Pipeline.afterTail₀ cfgs (dats m) 0 (V0 m) [hostOps1] c main_v12
      = shapeCast S16x128x256x256 (shapeCast S16x32x4x256x256
          (Pipeline.withArrays spec0 c (V0 m c) (fun w => (dats m 0 c).arrAt w cfg0.N) (Proc.devRef .tc main_v10))
          shapeCasts_S512x4x256x256_S16x32x4x256x256) shapeCasts_S16x32x4x256x256_S16x128x256x256 := by
    unfold Pipeline.afterTail₀
    show StableHlo.after hostOps1 _ (Proc.devRef .tc main_v12) = _
    after_results; rfl
  have hW : Pipeline.withArrays spec0 c (V0 m c) (fun w => (dats m 0 c).arrAt w cfg0.N) (Proc.devRef .tc main_v10)
      = regionOut (V m c main_v3) (V m c main_v5) (V m c main_v7) (V m c main_v9) :=
    (Pipeline.withArrays_arr spec0 launch0.win.arr_inj c _ _ 4).trans (region_array m c)
  funext i
  rw [e, tail_apply, hW]
  unfold regionOut Haar.dwt
  rw [V_p, V_q, V_r, V_s, entry_src, entry_src, entry_src, entry_src]
  rfl

/-- The kernel program's run, read: the result buffer ends at the transform of the argument, the argument unchanged. -/
theorem run : θ_run defs (onTc (τ := τ) (main (F := F))) ⟨m, fun _ => 0, ρ⟩ (fun r => ∀ c : Dev nD,
      r.2.mem ((c : Thread nD τ).loc main_v12) = Haar.dwt (m ((c : Thread nD τ).loc main_arg0))
      ∧ r.2.mem ((c : Thread nD τ).loc main_arg0) = m ((c : Thread nD τ).loc main_arg0)) :=
  (θ_run defs _ _).mono (fun r h c =>
      ⟨((h c).2 main_v12 (Pipeline.mem_restRefs_of main_v12 (by decide) (by decide))).trans (result_eq m c),
       ((h c).2 main_arg0 (Pipeline.mem_restRefs_of main_arg0 (by decide) (by decide))).trans (W_main_arg0 m (dats m) c)⟩)
    (run_main m ρ)

end Cert.KernelIdeal.Wavelet

end
-- ==== Proof.RefValue.lean ====
/-
  The reference program computes the transform `Haar.dwt`, element by element.

  The reference views the input as [16, 32, 256, 2, 256, 2] — batch, channel, patch row, row inside the patch, patch
  column, column inside the patch —, cuts the four slices at offsets `(a, b)` inside the patch and drops the unit axes:
  four [16, 32, 256, 256] arrays whose entry at `(n, ch, r, c)` is the input at `(n, ch, 2r + a, 2c + b)`. It forms the
  four coefficient arrays pointwise, gives each a unit axis after the channel, joins the four along that axis
  ([16, 32, 4, 256, 256]: position `k` on the joined axis reads coefficient array `k`) and merges channel and
  coefficient axes: output channel `ch' = 4·ch + k`, that is `ch = ch' / 4`, `k = ch' % 4`.
-/
import proofs.«125460_j16166256902650_2_alg».proof.Proof.Gen.ReferenceIdeal.Read
import proofs.«125460_j16166256902650_2_alg».proof.Proof.HaarSpec
import Idealize.ShloMosaic.Lib.Pipeline.Value
import Idealize.ShloMosaic.Lib.ValueIdx
import Idealize.ShloMosaic.Lib.ValueIdxRank6

set_option maxRecDepth 16384

noncomputable section

namespace Cert.ReferenceIdeal.Wavelet

open Idealize.ShloMosaic Idealize.ShloMosaic.ValueIdx Idealize.SL.Sem
open Cert.ReferenceIdeal Cert.ReferenceIdeal.Read

variable {F : FTy → Type} [FloatOps F]

/-- The input entry at offset `(a, b)` of the patch at position `l = (n, ch, r, c)`. -/
def entryOf (l : S16x32x256x256.Idx) (a b : Nat) (ha : a < 2 := by decide) (hb : b < 2 := by decide) :
    S16x32x512x512.Idx :=
  ix4 (n0 := 16) (n1 := 32) (n2 := 512) (n3 := 512) ⟨(l 0).val, (l 0).isLt⟩ ⟨(l 1).val, (l 1).isLt⟩
    ⟨2 * (l 2).val + a, by have h : (l 2).val < 256 := (l 2).isLt; omega⟩
    ⟨2 * (l 3).val + b, by have h : (l 3).val < 256 := (l 3).isLt; omega⟩

/-- The recast to patch coordinates, the slice at offsets `(a, b)` inside the patch, the unit axes dropped: read at `l`. -/
theorem entry_apply {α : Type} (x : S16x32x512x512.Idx → α) (a b : Nat) (ha : a < 2) (hb : b < 2)
    (h1 : S16x32x512x512.ShapeCasts S16x32x256x2x256x2)
    (hs : S16x32x256x2x256x2.Slices ![0, 0, 0, a, 0, b] S16x32x256x1x256x1)
    (h3 : S16x32x256x1x256x1.ShapeCasts S16x32x256x256) (l : S16x32x256x256.Idx) :
    shapeCast S16x32x256x256 (extractStridedSlice S16x32x256x1x256x1 ![0, 0, 0, a, 0, b]
      (shapeCast S16x32x256x2x256x2 x h1) hs) h3 l = x (entryOf l a b ha hb) := by
  have hl0 : (l 0).val < 16 := (l 0).isLt
  have hl1 : (l 1).val < 32 := (l 1).isLt
  have hl2 : (l 2).val < 256 := (l 2).isLt
  have hl3 : (l 3).val < 256 := (l 3).isLt
  refine (shapeCast_apply _ h3 l (ix6 (n0 := 16) (n1 := 32) (n2 := 256) (n3 := 1) (n4 := 256) (n5 := 1)
    ⟨(l 0).val, hl0⟩ ⟨(l 1).val, hl1⟩ ⟨(l 2).val, hl2⟩ ⟨0, by omega⟩ ⟨(l 3).val, hl3⟩ ⟨0, by omega⟩) ?_).trans ?_
  · rw [Shape.rowMajor_val_six, Shape.rowMajor_val_four]
    show (((((l 0).val * 32 + (l 1).val) * 256 + (l 2).val) * 1 + 0) * 256 + (l 3).val) * 1 + 0
        = (((l 0).val * 32 + (l 1).val) * 256 + (l 2).val) * 256 + (l 3).val
    omega
  refine (extractStridedSlice_apply _ _ hs _ (ix6 (n0 := 16) (n1 := 32) (n2 := 256) (n3 := 2) (n4 := 256) (n5 := 2)
    ⟨(l 0).val, hl0⟩ ⟨(l 1).val, hl1⟩ ⟨(l 2).val, hl2⟩ ⟨a, ha⟩ ⟨(l 3).val, hl3⟩ ⟨b, hb⟩) (fun ax => ?_)).trans ?_
  · match ax with
    | ⟨0, _⟩ => show (l 0).val = 0 + (l 0).val; omega
    | ⟨1, _⟩ => show (l 1).val = 0 + (l 1).val; omega
    | ⟨2, _⟩ => show (l 2).val = 0 + (l 2).val; omega
    | ⟨3, _⟩ => show a = a + 0; omega
    | ⟨4, _⟩ => show (l 3).val = 0 + (l 3).val; omega
    | ⟨5, _⟩ => show b = b + 0; omega
  refine shapeCast_apply _ h1 _ (entryOf l a b ha hb) ?_
  rw [Shape.rowMajor_val_four, Shape.rowMajor_val_six]
  show (((l 0).val * 32 + (l 1).val) * 512 + (2 * (l 2).val + a)) * 512 + (2 * (l 3).val + b)
      = (((((l 0).val * 32 + (l 1).val) * 256 + (l 2).val) * 2 + a) * 256 + (l 3).val) * 2 + b
  omega

variable (x : (⟨S16x32x512x512, .f32⟩ : BufTy).Contents (Elt F))

/-- The four patch-entry arrays. -/
theorem p_apply (l : S16x32x256x256.Idx) : val_main_v2 (F := F) x l = x (entryOf l 0 0) := by
  unfold val_main_v2 val_main_v1 val_main_v0
  exact entry_apply x 0 0 (by decide) (by decide) _ _ _ l
theorem q_apply (l : S16x32x256x256.Idx) : val_main_v4 (F := F) x l = x (entryOf l 0 1) := by
  unfold val_main_v4 val_main_v3 val_main_v0
  exact entry_apply x 0 1 (by decide) (by decide) _ _ _ l
theorem r_apply (l : S16x32x256x256.Idx) : val_main_v6 (F := F) x l = x (entryOf l 1 0) := by
  unfold val_main_v6 val_main_v5 val_main_v0
  exact entry_apply x 1 0 (by decide) (by decide) _ _ _ l
theorem s_apply (l : S16x32x256x256.Idx) : val_main_v8 (F := F) x l = x (entryOf l 1 1) := by
  unfold val_main_v8 val_main_v7 val_main_v0
  exact entry_apply x 1 1 (by decide) (by decide) _ _ _ l

/-- The four coefficient arrays: the reference's pointwise sums, differences and halving are the coefficients'. -/
theorem ll_apply (l : S16x32x256x256.Idx) : val_main_v13 (F := F) x l
    = Haar.coef 0 (x (entryOf l 0 0)) (x (entryOf l 0 1)) (x (entryOf l 1 0)) (x (entryOf l 1 1)) := by
  show FloatOps.mulf (FloatOps.addf (FloatOps.addf (FloatOps.addf (val_main_v2 (F := F) x l) (val_main_v4 (F := F) x l))
    (val_main_v6 (F := F) x l)) (val_main_v8 (F := F) x l)) (val_main_v12 (F := F) l) = _
  rw [p_apply, q_apply, r_apply, s_apply, val_main_v12_apply, Haar.coef_zero]
  rfl
theorem lh_apply (l : S16x32x256x256.Idx) : val_main_v18 (F := F) x l
    = Haar.coef 1 (x (entryOf l 0 0)) (x (entryOf l 0 1)) (x (entryOf l 1 0)) (x (entryOf l 1 1)) := by
  show FloatOps.mulf (FloatOps.subf (FloatOps.subf (FloatOps.addf (val_main_v2 (F := F) x l) (val_main_v4 (F := F) x l))
    (val_main_v6 (F := F) x l)) (val_main_v8 (F := F) x l)) (val_main_v17 (F := F) l) = _
  rw [p_apply, q_apply, r_apply, s_apply, val_main_v17_apply, Haar.coef_one]
  rfl
theorem hl_apply (l : S16x32x256x256.Idx) : val_main_v23 (F := F) x l
    = Haar.coef 2 (x (entryOf l 0 0)) (x (entryOf l 0 1)) (x (entryOf l 1 0)) (x (entryOf l 1 1)) := by
  show FloatOps.mulf (FloatOps.subf (FloatOps.addf (FloatOps.subf (val_main_v2 (F := F) x l) (val_main_v4 (F := F) x l))
    (val_main_v6 (F := F) x l)) (val_main_v8 (F := F) x l)) (val_main_v22 (F := F) l) = _
  rw [p_apply, q_apply, r_apply, s_apply, val_main_v22_apply, Haar.coef_two]
  rfl
theorem hh_apply (l : S16x32x256x256.Idx) : val_main_v28 (F := F) x l
    = Haar.coef 3 (x (entryOf l 0 0)) (x (entryOf l 0 1)) (x (entryOf l 1 0)) (x (entryOf l 1 1)) := by
  show FloatOps.mulf (FloatOps.addf (FloatOps.subf (FloatOps.subf (val_main_v2 (F := F) x l) (val_main_v4 (F := F) x l))
    (val_main_v6 (F := F) x l)) (val_main_v8 (F := F) x l)) (val_main_v27 (F := F) l) = _
  rw [p_apply, q_apply, r_apply, s_apply, val_main_v27_apply, Haar.coef_three]
  rfl

/-- The patch position of an element of the joined array: drop the coefficient axis. -/
def plane (j : S16x32x4x256x256.Idx) : S16x32x256x256.Idx :=
  ix4 (n0 := 16) (n1 := 32) (n2 := 256) (n3 := 256) ⟨(j 0).val, (j 0).isLt⟩ ⟨(j 1).val, (j 1).isLt⟩
    ⟨(j 3).val, (j 3).isLt⟩ ⟨(j 4).val, (j 4).isLt⟩

/-- The element of a unit-axis coefficient array that the joined array reads at `j`. -/
def unitOf (j : S16x32x4x256x256.Idx) : S16x32x1x256x256.Idx :=
  ix5 (n0 := 16) (n1 := 32) (n2 := 1) (n3 := 256) (n4 := 256) ⟨(j 0).val, (j 0).isLt⟩ ⟨(j 1).val, (j 1).isLt⟩
    ⟨0, by omega⟩ ⟨(j 3).val, (j 3).isLt⟩ ⟨(j 4).val, (j 4).isLt⟩

theorem unitOf_off (j : S16x32x4x256x256.Idx) :
    ∀ b : Fin S16x32x1x256x256.rank, b.cast (rfl : S16x32x1x256x256.rank = S16x32x4x256x256.rank) ≠ (2 : Fin 5) →
      (unitOf j b).val = (j (b.cast rfl)).val := by
  intro b hb
  match b with
  | ⟨0, _⟩ => rfl
  | ⟨1, _⟩ => rfl
  | ⟨2, _⟩ => exact absurd rfl hb
  | ⟨3, _⟩ => rfl
  | ⟨4, _⟩ => rfl

/-- The four unit-axis coefficient arrays, in the order they are joined. -/
abbrev pieces : List ((s : Shape) × (s.Idx → Elt F .f32)) :=
  [⟨S16x32x1x256x256, val_main_v29 (F := F) x⟩, ⟨S16x32x1x256x256, val_main_v30 (F := F) x⟩,
   ⟨S16x32x1x256x256, val_main_v31 (F := F) x⟩, ⟨S16x32x1x256x256, val_main_v32 (F := F) x⟩]

/-- The joined array: position `k` on the joined axis reads coefficient `k`. -/
theorem joined_apply (j : S16x32x4x256x256.Idx) : val_main_v33 (F := F) x j
    = Haar.coef (j 2).val (x (entryOf (plane j) 0 0)) (x (entryOf (plane j) 0 1)) (x (entryOf (plane j) 1 0))
        (x (entryOf (plane j) 1 1)) := by
  have hj2 : (j 2).val < 4 := (j 2).isLt
  unfold val_main_v33
  rcases (by omega : (j 2).val = 0 ∨ (j 2).val = 1 ∨ (j 2).val = 2 ∨ (j 2).val = 3) with h | h | h | h
  · refine Eq.trans (b := val_main_v29 (F := F) x (unitOf j)) ?_ ?_
    · refine concatenate_apply_piece (2 : Fin 5) (pieces x) _ j 0 ?_ S16x32x1x256x256 (val_main_v29 (F := F) x) rfl rfl 0 rfl
        (unitOf j) (unitOf_off j) ?_
      · show 0 < 4; omega
      · show 0 + 0 = (j 2).val; omega
    · rw [val_main_v29_apply, h]; exact ll_apply x _
  · refine Eq.trans (b := val_main_v30 (F := F) x (unitOf j)) ?_ ?_
    · refine concatenate_apply_piece (2 : Fin 5) (pieces x) _ j 1 ?_ S16x32x1x256x256 (val_main_v30 (F := F) x) rfl rfl 1 rfl
        (unitOf j) (unitOf_off j) ?_
      · show 1 < 4; omega
      · show 1 + 0 = (j 2).val; omega
    · rw [val_main_v30_apply, h]; exact lh_apply x _
  · refine Eq.trans (b := val_main_v31 (F := F) x (unitOf j)) ?_ ?_
    · refine concatenate_apply_piece (2 : Fin 5) (pieces x) _ j 2 ?_ S16x32x1x256x256 (val_main_v31 (F := F) x) rfl rfl 2 rfl
        (unitOf j) (unitOf_off j) ?_
      · show 2 < 4; omega
      · show 2 + 0 = (j 2).val; omega
    · rw [val_main_v31_apply, h]; exact hl_apply x _
  · refine Eq.trans (b := val_main_v32 (F := F) x (unitOf j)) ?_ ?_
    · refine concatenate_apply_piece (2 : Fin 5) (pieces x) _ j 3 ?_ S16x32x1x256x256 (val_main_v32 (F := F) x) rfl rfl 3 rfl
        (unitOf j) (unitOf_off j) ?_
      · show 3 < 4; omega
      · show 3 + 0 = (j 2).val; omega
    · rw [val_main_v32_apply, h]; exact hh_apply x _

/-- The reference's result is the transform of its argument. -/
theorem ref_eq : val_main_v34 (F := F) x = Haar.dwt x := by
  funext i
  have hi0 : (i 0).val < 16 := (i 0).isLt
  have hi1 : (i 1).val < 128 := (i 1).isLt
  have hi2 : (i 2).val < 256 := (i 2).isLt
  have hi3 : (i 3).val < 256 := (i 3).isLt
  rw [val_main_v34_apply, joined_apply]
  unfold Haar.dwt
  have hk : (idx_main_v34 i 2).val = (i 1).val % 4 := by
    show ((((i 0).val * 128 + (i 1).val) * 256 + (i 2).val) * 256 + (i 3).val) / 65536 % 4 = (i 1).val % 4
    omega
  have he : ∀ (a b : Nat) (ha : a < 2) (hb : b < 2),
      entryOf (plane (idx_main_v34 i)) a b ha hb = Haar.src i a b ha hb := by
    intro a b ha hb
    funext ax; apply Fin.ext
    match ax with
    | ⟨0, _⟩ =>
      show ((((i 0).val * 128 + (i 1).val) * 256 + (i 2).val) * 256 + (i 3).val) / 8388608 = (i 0).val
      omega
    | ⟨1, _⟩ =>
      show ((((i 0).val * 128 + (i 1).val) * 256 + (i 2).val) * 256 + (i 3).val) / 262144 % 32 = (i 1).val / 4
      omega
    | ⟨2, _⟩ =>
      show 2 * (((((i 0).val * 128 + (i 1).val) * 256 + (i 2).val) * 256 + (i 3).val) / 256 % 256) + a = 2 * (i 2).val + a
      omega
    | ⟨3, _⟩ =>
      show 2 * (((((i 0).val * 128 + (i 1).val) * 256 + (i 2).val) * 256 + (i 3).val) % 256) + b = 2 * (i 3).val + b
      omega
  rw [hk, he, he, he, he]

end Cert.ReferenceIdeal.Wavelet

end
-- ==== Proof.lean ====
/-
  A single-level two-dimensional Haar transform: the tiled kernel program against the array-level reference.

  Both programs cut every 512 × 512 image of the input [16, 32, 512, 512] into 2 × 2 patches with entries
      p = x[2r, 2c]   q = x[2r, 2c+1]   r' = x[2r+1, 2c]   s = x[2r+1, 2c+1]
  and produce, per patch, the four numbers ((p+q)+r')+s, ((p+q)−r')−s, ((p−q)+r')−s, ((p−q)−r')+s, each times one half,
  laid out as four consecutive output channels per input channel (`Haar.dwt`, Proof/HaarSpec.lean). The two programs
  perform the same operations in the same order on the same entries with the same constant; they differ only in how the
  data is laid out on the way:

  * the reference cuts the four entry arrays out of a [16, 32, 256, 2, 256, 2] view, combines them pointwise, and joins
    the four coefficient arrays along a new axis that it then merges with the channel axis (Proof/RefValue.lean);
  * the kernel program numbers the images 0 … 511, cuts the four entry arrays [512, 256, 256] before the region
    (Proof/Quadrants.lean), lets the region compute eight images per grid point — each of its four stores fills one
    coefficient's slab of the [8, 4, 256, 256] block (Proof/Block.lean), and the 64 blocks tile the [512, 4, 256, 256]
    array (Proof/RegionArray.lean) —, and recasts that array to [16, 128, 256, 256] (Proof/KernelValue.lean).

  Every layout step either keeps row-major positions or shifts a coordinate by a constant, so both results are read
  back, element by element, to the same expression in the same input entries. No law of arithmetic is used, and
  finiteness of the input is not needed: the equality holds for all extended-real inputs.

  The ideal pass rewrote nothing in the kernel, so the idealization claim is trivial; the three frame claims are the
  generated frame runs (for the reference, its generated run with the result dropped).
-/
import proofs.«125460_j16166256902650_2_alg».proof.Defs
import proofs.«125460_j16166256902650_2_alg».proof.Proof.Gen.Kernel
import proofs.«125460_j16166256902650_2_alg».proof.Proof.Gen.Kernel.Skeleton
import proofs.«125460_j16166256902650_2_alg».proof.Proof.Gen.Kernel.Launch
import proofs.«125460_j16166256902650_2_alg».proof.Proof.Gen.Kernel.Points
import proofs.«125460_j16166256902650_2_alg».proof.Proof.Gen.Kernel.Frame
import proofs.«125460_j16166256902650_2_alg».proof.Proof.Gen.KernelIdeal
import proofs.«125460_j16166256902650_2_alg».proof.Proof.Gen.KernelIdeal.Skeleton
import proofs.«125460_j16166256902650_2_alg».proof.Proof.Gen.KernelIdeal.Launch
import proofs.«125460_j16166256902650_2_alg».proof.Proof.Gen.KernelIdeal.Points
import proofs.«125460_j16166256902650_2_alg».proof.Proof.Gen.KernelIdeal.Frame
import proofs.«125460_j16166256902650_2_alg».proof.Proof.Gen.ReferenceIdeal
import proofs.«125460_j16166256902650_2_alg».proof.Proof.Gen.Pre_finite_inputs
import proofs.«125460_j16166256902650_2_alg».proof.Proof.Gen.ReferenceIdeal.Run
import proofs.«125460_j16166256902650_2_alg».proof.Proof.Gen.ReferenceIdeal.Read
import proofs.«125460_j16166256902650_2_alg».proof.Proof.KernelValue
import proofs.«125460_j16166256902650_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument alone. -/
theorem frame_kernel : Cert.frame_Kernel := fun m ρ _ => Cert.Kernel.Gen.frame m ρ

/-- So does the kernel program over the extended reals. -/
theorem frame_kernel_ideal : Cert.frame_KernelIdeal := fun m ρ _ => Cert.KernelIdeal.Gen.frame m ρ

/-- The reference runs and leaves its argument alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Over the extended reals both programs end with the transform of the (shared) argument in their result buffers. -/
theorem algebraic : Cert.algebraic_KernelIdeal_ReferenceIdeal := by
  intro m ρ m' ρ' _ hagree
  refine ⟨_, Cert.KernelIdeal.Wavelet.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.ReferenceIdeal.Wavelet.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
